-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S50000x64 : Shape := ⟨2, ![50000, 64]⟩

abbrev nBuf : Space → Nat
  | .hbm => 104
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S128x128, .f32⟩
  | .hbm, ⟨63, _⟩ => ⟨S128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000, .f32⟩
  | .hbm, ⟨83, _⟩ => ⟨S800000, .f32⟩
  | .hbm, ⟨84, _⟩ => ⟨S800000x1, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x64, .f32⟩
  | .hbm, ⟨103, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x64, .f32⟩
  | 99 => ⟨S800000x64, .f32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000, .f32⟩
  | 106 => ⟨S50000x1, .f32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S50000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S800000, .f32⟩
  | 5 => ⟨S800000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000, .f32⟩
  | 22 => ⟨S50000x1, .f32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_v87 : Ref sig .tc := ⟨.hbm, 115, rfl⟩
abbrev main_v88 : Ref sig .tc := ⟨.hbm, 116, rfl⟩
abbrev main_c_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_19 : Ref sig .tc := ⟨.hbm, 134, rfl⟩
abbrev main_v103 : Ref sig .tc := ⟨.hbm, 135, rfl⟩
abbrev main_v104 : Ref sig .tc := ⟨.hbm, 136, rfl⟩
abbrev main_c_20 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_21 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The kernel program's run at any instance, with its two results named: every weakly fair execution of the whole program
  — five stretches of host operations around four grid launches — terminates without a fault, the two result arrays
  ending at what the last stretch of host operations computes from the contents the fourth launch leaves (the fold of
  the program's segments from the launch memory), and the argument arrays ending as launched.
-/
import proofs.«125816_j90460601189230_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, with the last boundary's contents read at the two result buffers as well as at the
    arguments. -/
theorem run_named : θ_run defs (onTc (τ := τ) (main (F := F))) ⟨m, fun _ => 0, ρ⟩ (fun r => ∀ c : Dev nD,
      r.2.mem ((c.tc : Thread nD τ).loc main_v77) = W9 m ρ c (Proc.devRef .tc main_v77)
      ∧ r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v77 (by decide)),
       h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Named

end
-- ==== Proof.Spec.lean ====
/-
  The mathematics of the two-layer graph convolution, as functions on whole arrays of extended reals.

  One layer takes a feature matrix `xw` (a node per row), and per edge `e` a weight `nrm e`, a source index word and a
  destination index word. Row `i` of the neighbour sum adds, over the edges whose destination word read signed is `i`,
  the weight times the row of `xw` the source word names (read signed and clamped into the rows). The layer's result at
  `(i, c)` is `((0 + neighbour sum) + xw (i, c) · d2 i) + bias c`. Everything at column `c` depends on column `c` of
  `xw` alone; that is what lets one layer on the columns of two weight matrices side by side be cut into the two layers
  on each (`comb_agg_mm_cols`).
-/
import Idealize.ShloMosaic.PureOps.Ideal
import Idealize.ShloMosaic.Lib.ValueIdx

noncomputable section

open scoped BigOperators

namespace Cert.Gcn

open Idealize.ShloMosaic Idealize.ShloMosaic.ValueIdx

/-- The zero word's value. -/
abbrev zeroE : EReal := Ideal.ofBits .f32 0x00000000#32

/-- The row of the features an edge reads: its source word, signed, clamped into `[0, N − 1]`. -/
def srcRow {N R : Nat} (hN : 0 < N) (sidx : IVec ⟨2, ![R, 1]⟩ 32) (e : Fin R) : Fin N :=
  ⟨min (sidx (ix2 e 0)).toInt.toNat (N - 1), by omega⟩

/-- The neighbour sum of one feature column at node `i`. -/
def nbrSum {N R : Nat} (hN : 0 < N) (nrm : (⟨2, ![R, 1]⟩ : Shape).Idx → EReal) (sidx didx : IVec ⟨2, ![R, 1]⟩ 32)
    (col : Fin N → EReal) (i : Fin N) : EReal :=
  ∑ e ∈ Finset.univ.filter (fun e : Fin R => (didx (ix2 e 0)).toInt = (i.val : Int)), nrm (ix2 e 0) * col (srcRow hN sidx e)

/-- The aggregated features: zero plus the neighbour sum, column by column. -/
def agg {N R C : Nat} (hN : 0 < N) (nrm : (⟨2, ![R, 1]⟩ : Shape).Idx → EReal) (sidx didx : IVec ⟨2, ![R, 1]⟩ 32)
    (xw : (⟨2, ![N, C]⟩ : Shape).Idx → EReal) : (⟨2, ![N, C]⟩ : Shape).Idx → EReal :=
  fun i => zeroE + nbrSum hN nrm sidx didx (fun n => xw (ix2 n (i 1))) (i 0)

/-- Aggregate plus the node's own features scaled per node, plus a bias per column. -/
def comb {N C : Nat} (a x : (⟨2, ![N, C]⟩ : Shape).Idx → EReal) (d2 : (⟨2, ![N, 1]⟩ : Shape).Idx → EReal)
    (b : Fin C → EReal) : (⟨2, ![N, C]⟩ : Shape).Idx → EReal :=
  fun i => (a i + x i * d2 (ix2 (i 0) 0)) + b (i 1)

/-- The positive part. -/
def relu {s : Shape} (a : s.Idx → EReal) : s.Idx → EReal := fun i => max (a i) zeroE

/-- A matrix product, as the sum over the contracted coordinate. -/
def mm {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- ONE LAYER ON A WIDER WEIGHT MATRIX, READ AT A COLUMN, IS THE LAYER ON THE NARROWER MATRIX THAT HOLDS THAT COLUMN:
    at `(i, j')` the layer reads the product's column `j'` only, which is the product with the weight column `j'`. -/
theorem comb_agg_mm_cols {N R K C C' : Nat} (hN : 0 < N) (nrm : (⟨2, ![R, 1]⟩ : Shape).Idx → EReal)
    (sidx didx : IVec ⟨2, ![R, 1]⟩ 32) (d2 : (⟨2, ![N, 1]⟩ : Shape).Idx → EReal)
    (h : (⟨2, ![N, K]⟩ : Shape).Idx → EReal)
    (W' : (⟨2, ![K, C']⟩ : Shape).Idx → EReal) (b' : Fin C' → EReal)
    (W : (⟨2, ![K, C]⟩ : Shape).Idx → EReal) (b : Fin C → EReal)
    (i : Fin N) (j' : Fin C') (j : Fin C)
    (hW : ∀ k : Fin K, W' (ix2 k j') = W (ix2 k j)) (hb : b' j' = b j) :
    comb (agg hN nrm sidx didx (mm h W')) (mm h W') d2 b' (ix2 i j')
      = comb (agg hN nrm sidx didx (mm h W)) (mm h W) d2 b (ix2 i j) := by
  have hcol : ∀ n : Fin N, mm h W' (ix2 n j') = mm h W (ix2 n j) := fun n =>
    Finset.sum_congr rfl fun k _ => by
      show h (ix2 n k) * W' (ix2 k j') = h (ix2 n k) * W (ix2 k j)
      rw [hW k]
  show (agg hN nrm sidx didx (mm h W') (ix2 i j') + mm h W' (ix2 i j') * d2 (ix2 i 0)) + b' j'
    = (agg hN nrm sidx didx (mm h W) (ix2 i j) + mm h W (ix2 i j) * d2 (ix2 i 0)) + b j
  have hagg : agg hN nrm sidx didx (mm h W') (ix2 i j') = agg hN nrm sidx didx (mm h W) (ix2 i j) := by
    show zeroE + nbrSum hN nrm sidx didx (fun n => mm h W' (ix2 n j')) i = zeroE + nbrSum hN nrm sidx didx (fun n => mm h W (ix2 n j)) i
    rw [show (fun n => mm h W' (ix2 n j')) = fun n => mm h W (ix2 n j) from funext hcol]
  rw [hagg, hcol i, hb]

end Cert.Gcn

end
-- ==== Proof.K1.lean ====
/-
  The kernel program read at the extended reals: its first stretch of host operations, read: from the edge list alone it computes the
  source and destination index vectors, the inverse square root of the degrees and its square as a column. Each is
  the same chain of operations the reference applies to the same argument, so each is stated as the reference's
  own stage of that argument; the other arguments are untouched.
-/
import proofs.«125816_j90460601189230_1_alg».proof.Proof.Gen.KernelIdeal.Frame
import proofs.«125816_j90460601189230_1_alg».proof.Proof.Gen.ReferenceIdeal.Read
import proofs.«125816_j90460601189230_1_alg».proof.Proof.Spec
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen Cert.Gcn

variable (m : (ℓ : Loc nD τ sig) → Buf (Elt Ideal) ℓ) (ρ : Dev nD → PrngReg) (c : Dev nD)

/-- The edge list, as launched. -/
abbrev E : (⟨Cert.ReferenceIdeal.S2x800000, .i32⟩ : BufTy).Contents (Elt Ideal) := m ((c : Thread nD τ).loc main_arg1)

/-- The source indices, the destination indices, the inverse square roots of the degrees and their squares as a
    column: the reference's stages of the edge list. -/
abbrev SRC := Cert.ReferenceIdeal.Read.val_main_v1 (F := Ideal) (E m c)
abbrev DST := Cert.ReferenceIdeal.Read.val_main_v3 (F := Ideal) (E m c)
abbrev DIS := Cert.ReferenceIdeal.Read.val_main_v10 (F := Ideal) (E m c)
abbrev D2C := Cert.ReferenceIdeal.Read.val_main_v41 (F := Ideal) (E m c)

set_option maxHeartbeats 1000000 in
theorem w1_v1 : W1 m ρ c (Proc.devRef .tc main_v1) = SRC m c := by
  show StableHlo.after hostOps0 (W0 m ρ c) (Proc.devRef .tc main_v1) = _
  after_results
  rfl
set_option maxHeartbeats 1000000 in
theorem w1_v3 : W1 m ρ c (Proc.devRef .tc main_v3) = DST m c := by
  show StableHlo.after hostOps0 (W0 m ρ c) (Proc.devRef .tc main_v3) = _
  after_results
  rfl
set_option maxHeartbeats 1000000 in
theorem w1_v10 : W1 m ρ c (Proc.devRef .tc main_v10) = DIS m c := by
  show StableHlo.after hostOps0 (W0 m ρ c) (Proc.devRef .tc main_v10) = _
  after_results
  rfl
set_option maxHeartbeats 1000000 in
theorem w1_v12 : W1 m ρ c (Proc.devRef .tc main_v12) = D2C m c := by
  show StableHlo.after hostOps0 (W0 m ρ c) (Proc.devRef .tc main_v12) = _
  after_results
  rfl
set_option maxHeartbeats 1000000 in
theorem w1_arg0 : W1 m ρ c (Proc.devRef .tc main_arg0) = m ((c : Thread nD τ).loc main_arg0) := by
  show StableHlo.after hostOps0 (W0 m ρ c) (Proc.devRef .tc main_arg0) = _
  after_results
set_option maxHeartbeats 1000000 in
theorem w1_arg2 : W1 m ρ c (Proc.devRef .tc main_arg2) = m ((c : Thread nD τ).loc main_arg2) := by
  show StableHlo.after hostOps0 (W0 m ρ c) (Proc.devRef .tc main_arg2) = _
  after_results
set_option maxHeartbeats 1000000 in
theorem w1_arg3 : W1 m ρ c (Proc.devRef .tc main_arg3) = m ((c : Thread nD τ).loc main_arg3) := by
  show StableHlo.after hostOps0 (W0 m ρ c) (Proc.devRef .tc main_arg3) = _
  after_results
set_option maxHeartbeats 1000000 in
theorem w1_arg4 : W1 m ρ c (Proc.devRef .tc main_arg4) = m ((c : Thread nD τ).loc main_arg4) := by
  show StableHlo.after hostOps0 (W0 m ρ c) (Proc.devRef .tc main_arg4) = _
  after_results
set_option maxHeartbeats 1000000 in
theorem w1_arg5 : W1 m ρ c (Proc.devRef .tc main_arg5) = m ((c : Thread nD τ).loc main_arg5) := by
  show StableHlo.after hostOps0 (W0 m ρ c) (Proc.devRef .tc main_arg5) = _
  after_results
set_option maxHeartbeats 1000000 in
theorem w1_arg6 : W1 m ρ c (Proc.devRef .tc main_arg6) = m ((c : Thread nD τ).loc main_arg6) := by
  show StableHlo.after hostOps0 (W0 m ρ c) (Proc.devRef .tc main_arg6) = _
  after_results
set_option maxHeartbeats 1000000 in
theorem w1_arg7 : W1 m ρ c (Proc.devRef .tc main_arg7) = m ((c : Thread nD τ).loc main_arg7) := by
  show StableHlo.after hostOps0 (W0 m ρ c) (Proc.devRef .tc main_arg7) = _
  after_results

end Cert.KernelIdeal.KV

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.Reg0.lean ====
/-
  Launch 0 of the program, a matrix product tiled over the rows: grid point `t` multiplies rows `2000 t … 2000 t + 1999`
  of its left operand by the whole right operand (both rounded to a narrower format first, which at the extended reals
  is the identity) into a zero accumulator, and writes the 2000 × 128 product back over the same rows of the result.
  So the result array ends at the product of the two operand arrays as the launch finds them: element `(r, q)` is the
  sum over `k` of `left (r, k) · right (k, q)`.
-/
import proofs.«125816_j90460601189230_1_alg».proof.Proof.Gen.KernelIdeal.Frame
import proofs.«125816_j90460601189230_1_alg».proof.Proof.LibPlainDot
import proofs.«125816_j90460601189230_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.Gcn

theorem hz : (![0, 0] : Fin 2 → Nat) = fun _ => 0 := funext fun a => by fin_cases a <;> rfl

/-- The printed contraction is the plain `M × K` by `K × N` one. -/
theorem dot_plain : dot_S2000x128_S128x128_S2000x128_1_0_0_1_n_n = DotDims.plain 2000 128 128 := rfl

/-- The body's one stored value at an index: the sum over the contracted coordinate of the products of the loaded
    blocks' elements. -/
theorem pay_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  try simp only [shapeCast_self]
  rw [dot_plain]
  exact Cert.Lib.PlainDot.matmul_zero_apply 2000 128 128 none _ _ (ix2 p q)

variable (V : (c : Dev nD) → (b : Ref sig .tc) → Buf (Elt Ideal) ((c : Thread nD τ).loc b))

/-- Where the windows' blocks sit at grid point `t`: the left operand's and the result's at row block `t`, the right
    operand's at the origin. Decided over the 25 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The left operand's block at point `t` is rows `2000 t …` of its array. -/
theorem blk0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_arg0 : S50000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The right operand's block at any point is its whole array. -/
theorem blk1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → EReal) k := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (x 0).val = (k 0).val; rw [e2, hk0]; omega
  | ⟨1, _⟩ => show win0_1.index t 1 * 128 + 1 * (x 1).val = (k 1).val; rw [e3, hk1]; omega

/-- What point `t` writes back is block `t` of the product of the two arrays. -/
theorem flushed_eq (c : Dev nD) (t : Fin cfg0.N) :
    (dat0 V c).flushed 2 t = ((cfg0.win 2).blk t).view.read (Elt Ideal)
      (mm (M := 50000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = mm (M := 50000) (K := 128) (N := 128) (V c main_arg0) (V c main_arg2) (((cfg0.win 2).blk t).view.emb (ix2 p q))
  rw [pay_apply (iblk0 V c 0 t) (iblk0 V c 1 t) p q]
  show _ = mm (M := 50000) (K := 128) (N := 128) (V c main_arg0) (V c main_arg2) (((cfg0.win 2).blk t).view.emb (ix2 p q))
  unfold mm
  refine Finset.sum_congr rfl fun k _ => ?_
  rw [blk0_apply V c t (ix2 p k) (ix2 ((((cfg0.win 2).blk t).view.emb (ix2 p q)) 0) k)
      (by show win0_2.index t 0 * 2000 + 1 * p.val = 2000 * t.val + p.val; rw [e4]; omega) rfl,
    blk1_apply V c t (ix2 k q) (ix2 k ((((cfg0.win 2).blk t).view.emb (ix2 p q)) 1)) rfl
      (by show win0_2.index t 1 * 128 + 1 * q.val = q.val; rw [e5]; omega)]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v13).slice (win0_2.rect t)).set ↔ _
  rw [View.set_slice_whole, Rect.mem_set_unit]
  exact Iff.rfl

/-- Every row is in the block of the point its number divided by 2000 names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, e4, e5⟩ := idx_facts ⟨(i 0).val / 2000, hlt⟩
  have e4' : win0_2.index ⟨(i 0).val / 2000, hlt⟩ 0 = (i 0).val / 2000 := e4
  refine ⟨⟨(i 0).val / 2000, hlt⟩, flush0_2 _, ?_⟩
  rw [mem_blk]
  intro a
  match a with
  | ⟨0, _⟩ =>
    show win0_2.index ⟨(i 0).val / 2000, hlt⟩ 0 * 2000 ≤ (i 0).val ∧ (i 0).val < win0_2.index ⟨(i 0).val / 2000, hlt⟩ 0 * 2000 + 2000
    rw [e4']; omega
  | ⟨1, _⟩ =>
    show win0_2.index ⟨(i 0).val / 2000, hlt⟩ 1 * 128 ≤ (i 1).val ∧ (i 1).val < win0_2.index ⟨(i 0).val / 2000, hlt⟩ 1 * 128 + 128
    rw [e5]; omega

/-- THE RESULT ARRAY after the launch: the product of the operand arrays as the launch finds them. -/
theorem arr (c : Dev nD) : (dat0 V c).arrAt 2 cfg0.N
    = mm (M := 50000) (K := 128) (N := 128) (V c main_arg0) (V c main_arg2) :=
  (dat0 V c).arrAt_eq_of_cover 2 _ (fun t _ => flushed_eq V c t) cover

end Cert.KernelIdeal.Reg0

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.Reg1.lean ====
/-
  Launch 1 of the program, the pointwise combine tiled over the rows: grid point `t` reads rows `2000 t … 2000 t + 1999`
  of the aggregated features, of the node's own features and of the per-node scale column, and the whole bias row, and
  writes `(aggregate + own · scale) + bias`, then its positive part, back over the same rows of the result. So the result
  array ends at that function of the four arrays as the launch finds them, element by element.
-/
import proofs.«125816_j90460601189230_1_alg».proof.Proof.Gen.KernelIdeal.Frame
import proofs.«125816_j90460601189230_1_alg».proof.Proof.LibColBroadcast
import proofs.«125816_j90460601189230_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.Gcn Cert.Lib.ColBroadcast

theorem hz : (![0, 0] : Fin 2 → Nat) = fun _ => 0 := funext fun a => by fin_cases a <;> rfl

/-- The body's one stored value at an index. -/
theorem pay_apply (v0 v2 : Vec Ideal S2000x128 .f32) (v4 : Vec Ideal S2000x1 .f32) (v9 : Vec Ideal S1x128 .f32)
    (p : Fin 2000) (q : Fin 128) :
    k1_pay1 v0 v2 v4 v9 (ix2 p q)
      = max ((v0 (ix2 p q) + v2 (ix2 p q) * v4 (ix2 p (0 : Fin 1))) + v9 (ix2 (0 : Fin 1) q)) zeroE := by
  unfold k1_pay1
  simp only [shapeCast_self]
  show max ((v0 (ix2 p q) + v2 (ix2 p q) * broadcastTo S2000x128 v4 broadcasts_S2000x1_S2000x128 (ix2 p q))
      + broadcastTo S2000x128 v9 broadcasts_S1x128_S2000x128 (ix2 p q)) _ = _
  rw [broadcastTo_a1_ab_apply, broadcastTo_1b_ab_apply]
  rfl

variable (V : (c : Dev nD) → (b : Ref sig .tc) → Buf (Elt Ideal) ((c : Thread nD τ).loc b))

/-- Where the windows' blocks sit at grid point `t`: the three row-tiled operands' and the result's at row block `t`,
    the bias row's at the origin. Decided over the 25 points. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0)

/-- The aggregate's block at point `t` is rows `2000 t …` of its array. -/
theorem blk0_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v41 : S50000x128.Idx → EReal) k := by
  obtain ⟨e0, e1, -⟩ := idx_facts t
  unfold iblk1
  rw [View.read_apply]
  show V c main_v41 _ = V c main_v41 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The own features' block at point `t` is rows `2000 t …` of their array. -/
theorem blk1_apply (c : Dev nD) (t : Fin cfg1.N) (x : S2000x128.Idx) (k : S50000x128.Idx)
    (hk0 : (k 0).val = 2000 * t.val + (x 0).val) (hk1 : (k 1).val = (x 1).val) :
    (iblk1 V c 1 t : Vec Ideal S2000x128 .f32) x = (V c main_v13 : S50000x128.Idx → EReal) k := by
  obtain ⟨-, -, e0, e1, -⟩ := idx_facts t
  unfold iblk1
  rw [View.read_apply]
  show V c main_v13 _ = V c main_v13 _
  congr 1
  funext a
  apply Fin.ext
  match a with
  | ⟨0, _⟩ => show win1_1.index t 0 * 2000 + 1 * (x 0).val = (k 0).val; rw [e0, hk0]; omega
  | ⟨1, _⟩ => show win1_1.index t 1 * 128 + 1 * (x 1).val = (k 1).val; rw [e1, hk1]; omega

/-- The scale column's block at point `t` is rows `2000 t …` of the column. -/
theorem blk2_apply (c : Dev nD) (t : Fin cfg1.N) (x : S2000x1.Idx) (k : S50000x1.Idx)
    (hk0 : (k 0).val = 2000 * t.val + (x 0).val) (hk1 : (k 1).val = (x 1).val) :
    (iblk1 V c 2 t : Vec Ideal S2000x1 .f32) x = (V c main_v12 : S50000x1.Idx → EReal) k := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t 0 * 2000 + 1 * (x 0).val = (k 0).val; rw [e0, hk0]; omega
  | ⟨1, _⟩ => show win1_2.index t 1 * 1 + 1 * (x 1).val = (k 1).val; rw [e1, hk1]; omega

/-- The bias row's block at any point is the whole row. -/
theorem blk3_apply (c : Dev nD) (t : Fin cfg1.N) (x : S1x128.Idx) (k : S1x128.Idx)
    (hk0 : (k 0).val = (x 0).val) (hk1 : (k 1).val = (x 1).val) :
    (iblk1 V c 3 t : Vec Ideal S1x128 .f32) x = (V c main_v42 : S1x128.Idx → EReal) k := by
  obtain ⟨-, -, -, -, -, -, e0, e1, -⟩ := idx_facts t
  unfold iblk1
  rw [View.read_apply]
  show V c main_v42 _ = V c main_v42 _
  congr 1
  funext a
  apply Fin.ext
  match a with
  | ⟨0, _⟩ => show win1_3.index t 0 * 1 + 1 * (x 0).val = (k 0).val; rw [e0, hk0]; omega
  | ⟨1, _⟩ => show win1_3.index t 1 * 128 + 1 * (x 1).val = (k 1).val; rw [e1, hk1]; omega

/-- The function the result array ends at. -/
abbrev G (c : Dev nD) : S50000x128.Idx → EReal :=
  relu (s := ⟨2, ![50000, 128]⟩) (comb (N := 50000) (C := 128) (V c main_v41) (V c main_v13) (V c main_v12) (fun q => (V c main_v42 : S1x128.Idx → EReal) (ix2 (0 : Fin 1) q)))

/-- What point `t` writes back is block `t` of that function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨-, -, -, -, -, -, -, -, e8, e9⟩ := idx_facts t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (ix2 p q)
    = G V c (((cfg1.win 4).blk t).view.emb (ix2 p q))
  have hi0 : ((((cfg1.win 4).blk t).view.emb (ix2 p q)) 0).val = 2000 * t.val + p.val := by
    show win1_4.index t 0 * 2000 + 1 * p.val = 2000 * t.val + p.val; rw [e8]; omega
  have hi1 : ((((cfg1.win 4).blk t).view.emb (ix2 p q)) 1).val = q.val := by
    show win1_4.index t 1 * 128 + 1 * q.val = q.val; rw [e9]; omega
  rw [pay_apply (iblk1 V c 0 t) (iblk1 V c 1 t) (iblk1 V c 2 t) (iblk1 V c 3 t) p q,
    blk0_apply V c t (ix2 p q) _ hi0 hi1, blk1_apply V c t (ix2 p q) _ hi0 hi1,
    blk2_apply V c t (ix2 p (0 : Fin 1)) (ix2 ((((cfg1.win 4).blk t).view.emb (ix2 p q)) 0) (0 : Fin 1)) hi0 rfl,
    blk3_apply V c t (ix2 (0 : Fin 1) q) (ix2 (0 : Fin 1) ((((cfg1.win 4).blk t).view.emb (ix2 p q)) 1)) rfl hi1]
  rfl

/-- An index of the result array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43).slice (win1_4.rect t)).set ↔ _
  rw [View.set_slice_whole, Rect.mem_set_unit]
  exact Iff.rfl

/-- Every row is in the block of the point its number divided by 2000 names. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, e8, e9⟩ := idx_facts ⟨(i 0).val / 2000, hlt⟩
  have e8' : win1_4.index ⟨(i 0).val / 2000, hlt⟩ 0 = (i 0).val / 2000 := e8
  refine ⟨⟨(i 0).val / 2000, hlt⟩, flush1_4 _, ?_⟩
  rw [mem_blk]
  intro a
  match a with
  | ⟨0, _⟩ =>
    show win1_4.index ⟨(i 0).val / 2000, hlt⟩ 0 * 2000 ≤ (i 0).val ∧ (i 0).val < win1_4.index ⟨(i 0).val / 2000, hlt⟩ 0 * 2000 + 2000
    rw [e8']; omega
  | ⟨1, _⟩ =>
    show win1_4.index ⟨(i 0).val / 2000, hlt⟩ 1 * 128 ≤ (i 1).val ∧ (i 1).val < win1_4.index ⟨(i 0).val / 2000, hlt⟩ 1 * 128 + 128
    rw [e9]; omega

/-- THE RESULT ARRAY after the launch. -/
theorem arr (c : Dev nD) : (dat1 V c).arrAt 4 cfg1.N = G V c :=
  (dat1 V c).arrAt_eq_of_cover 4 _ (fun t _ => flushed_eq V c t) cover

end Cert.KernelIdeal.Reg1

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«125816_j90460601189230_1_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«125816_j90460601189230_1_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibAggRows.lean ====
/-
  The host's edge aggregation read as one function: gather the source rows of a feature matrix, scale each gathered
  row by its edge's weight (a column broadcast over the feature columns), and scatter-add the rows onto a zero matrix at
  the destination indices. For any records with the row-gather and row-scatter numbers and any extents this is the
  neighbour sum `Cert.Gcn.agg`: element `(i, c)` is zero plus the sum, over the edges whose destination word read signed
  is `i`, of the weight times the feature at the clamped source row and column `c`.
-/
import proofs.«125816_j90460601189230_1_alg».proof.Proof.LibScatterDims
import proofs.«125816_j90460601189230_1_alg».proof.Proof.LibRowGatherDims
import proofs.«125816_j90460601189230_1_alg».proof.Proof.LibColBroadcast
import proofs.«125816_j90460601189230_1_alg».proof.Proof.Spec

noncomputable section

open scoped BigOperators

namespace Cert.Gcn

open Idealize.ShloMosaic Idealize.ShloMosaic.ValueIdx Cert.Lib.HostIndex Cert.Lib.ColBroadcast

theorem hostAgg_eq {N R C : Nat} (hN : 0 < N)
    (dS : ScatterDims ⟨2, ![N, C]⟩ ⟨2, ![R, 1]⟩ ⟨2, ![R, C]⟩)
    (s1 : dS.updateWindowDims = [1]) (s2 : dS.insertedWindowDims = [0]) (s3 : dS.scatterDimsToOperandDims = [0])
    (s4 : dS.indexVectorDim = 1)
    (dG : GatherDims ⟨2, ![N, C]⟩ ⟨2, ![R, 1]⟩ ⟨2, ![R, C]⟩)
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, C])
    (hB : (⟨2, ![R, 1]⟩ : Shape).BroadcastsInDim ⟨2, ![R, C]⟩ ![0, 1])
    (hZ : (⟨0, ![]⟩ : Shape).BroadcastsInDim ⟨2, ![N, C]⟩ ![])
    (nrm : (⟨2, ![R, 1]⟩ : Shape).Idx → EReal) (sidx didx : IVec ⟨2, ![R, 1]⟩ 32)
    (xw : (⟨2, ![N, C]⟩ : Shape).Idx → EReal) :
    Host.scatterAdd (F := Ideal) (φ := .f32) dS
        (broadcastInDim ⟨2, ![N, C]⟩ ![] hZ (constant (F := Ideal) ⟨0, ![]⟩ .f32 0x00000000#32)) didx
        (mulf (F := Ideal) (φ := .f32) (broadcastInDim ⟨2, ![R, C]⟩ ![0, 1] hB nrm) (Host.gather dG xw sidx))
      = agg hN nrm sidx didx xw := by
  funext i
  obtain ⟨p, c, rfl⟩ : ∃ (p : Fin N) (c : Fin C), i = ix2 p c := ⟨i 0, i 1, eq_ix2 i⟩
  rw [hostScatterAdd_rows_apply dS s1 s2 s3 s4]
  show _ = zeroE + nbrSum hN nrm sidx didx (fun n => xw (ix2 n c)) p
  congr 1
  unfold nbrSum
  refine Finset.sum_congr rfl fun e _ => ?_
  show broadcastInDim ⟨2, ![R, C]⟩ ![0, 1] hB nrm (ix2 e c) * Host.gather dG xw sidx (ix2 e c) = _
  rw [broadcastInDim_a1_ab_apply, hostGather_rows_apply hN dG g1 g2 g3 g4 g5 g6 g7]
  rfl

end Cert.Gcn

end
-- ==== Proof.LibHostLayer.lean ====
/-
  The host's spellings of the layer's pieces, read as the functions of `Cert.Gcn`. General over the extents and over
  the side conditions the operations carry.

  * `hostComb_eq`: `(a + x · bcast d2) + bcast (bcast b)`, with the per-node scale a column broadcast over the feature
    columns and the bias a vector made a row and broadcast over the nodes, is `comb a x d2 b`.
  * `hostRelu_eq`: the maximum with a broadcast zero scalar is the positive part.
  * `hostDot_eq`: the host's contraction with the plain matrix-product numbers is `mm`.
-/
import proofs.«125816_j90460601189230_1_alg».proof.Proof.LibAggRows
import proofs.«125816_j90460601189230_1_alg».proof.Proof.LibPlainDot

noncomputable section

open scoped BigOperators

namespace Cert.Gcn

open Idealize.ShloMosaic Idealize.ShloMosaic.ValueIdx Cert.Lib.ColBroadcast

theorem hostComb_eq {N C : Nat}
    (hD : (⟨2, ![N, 1]⟩ : Shape).BroadcastsInDim ⟨2, ![N, C]⟩ ![0, 1])
    (hB1 : (⟨1, ![C]⟩ : Shape).BroadcastsInDim ⟨2, ![1, C]⟩ ![1])
    (hB2 : (⟨2, ![1, C]⟩ : Shape).BroadcastsInDim ⟨2, ![N, C]⟩ ![0, 1])
    (a x : (⟨2, ![N, C]⟩ : Shape).Idx → EReal) (d2 : (⟨2, ![N, 1]⟩ : Shape).Idx → EReal)
    (b : (⟨1, ![C]⟩ : Shape).Idx → EReal) :
    addf (F := Ideal) (φ := .f32) (addf (F := Ideal) (φ := .f32) a (mulf (F := Ideal) (φ := .f32) x (broadcastInDim ⟨2, ![N, C]⟩ ![0, 1] hD d2)))
        (broadcastInDim ⟨2, ![N, C]⟩ ![0, 1] hB2 (broadcastInDim ⟨2, ![1, C]⟩ ![1] hB1 b))
      = comb a x d2 (fun q => b (ix1 q)) := by
  funext i
  obtain ⟨p, c, rfl⟩ : ∃ (p : Fin N) (c : Fin C), i = ix2 p c := ⟨i 0, i 1, eq_ix2 i⟩
  show (a (ix2 p c) + x (ix2 p c) * broadcastInDim ⟨2, ![N, C]⟩ ![0, 1] hD d2 (ix2 p c))
      + broadcastInDim ⟨2, ![N, C]⟩ ![0, 1] hB2 (broadcastInDim ⟨2, ![1, C]⟩ ![1] hB1 b) (ix2 p c)
    = (a (ix2 p c) + x (ix2 p c) * d2 (ix2 p 0)) + b (ix1 c)
  rw [broadcastInDim_a1_ab_apply]
  congr 1
  refine (broadcastInDim_apply ![0, 1] hB2 _ (ix2 p c) (ix2 (0 : Fin 1) c) fun ax => ?_).trans
    (broadcastInDim_apply ![1] hB1 b (ix2 (0 : Fin 1) c) (ix1 c) fun ax => ?_)
  · match ax with
    | ⟨0, _⟩ => rfl
    | ⟨1, _⟩ =>
      show c.val = if C = 1 then 0 else c.val
      split
      · have := c.isLt; omega
      · rfl
  · match ax with
    | ⟨0, _⟩ =>
      show c.val = if C = 1 then 0 else c.val
      split
      · have := c.isLt; omega
      · rfl

theorem hostRelu_eq {s : Shape} (hZ : (⟨0, ![]⟩ : Shape).BroadcastsInDim s ![]) (a : s.Idx → EReal) :
    maximumf (F := Ideal) (φ := .f32) a (broadcastInDim s ![] hZ (constant (F := Ideal) ⟨0, ![]⟩ .f32 0x00000000#32))
      = relu a := by
  funext i
  show max (a i) (broadcastInDim s ![] hZ (constant (F := Ideal) ⟨0, ![]⟩ .f32 0x00000000#32) i) = max (a i) zeroE
  rw [broadcastInDim_apply ![] hZ _ i ix0 (fun ax => ax.elim0)]
  rfl

theorem hostDot_eq {M K N : Nat} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) :
    Host.dotGeneral (F := Ideal) (φ₁ := .f32) (φ₂ := .f32) d none l r = mm l r := by
  subst hd
  funext i
  simp only [Host.dotGeneral]
  exact Cert.Lib.PlainDot.dotGeneral_apply M K N none _ l r i

end Cert.Gcn

end
-- ==== Proof.K2.lean ====
/-
  The kernel program at the extended reals, from its first launch to its second, read. The first launch leaves the product of the
  features and the first weight matrix. The stretch of host operations after it gathers the product's source rows,
  scales them by the edge weights and scatter-adds them at the destinations — the neighbour sum of the product, with
  the weights and the two index columns the reference's own stages of the edge list — and makes the first bias a row.
  The second launch combines the two with the squared inverse degrees and the bias and takes the positive part: the
  hidden features.
-/
import proofs.«125816_j90460601189230_1_alg».proof.Proof.K1
import proofs.«125816_j90460601189230_1_alg».proof.Proof.Reg0
import proofs.«125816_j90460601189230_1_alg».proof.Proof.Reg1
import proofs.«125816_j90460601189230_1_alg».proof.Proof.LibHostLayer
import Idealize.ShloMosaic.Lib.ValueLayout

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen Cert.Gcn

variable (m : (ℓ : Loc nD τ sig) → Buf (Elt Ideal) ℓ) (ρ : Dev nD → PrngReg) (c : Dev nD)

/-- The edge weights and the source and destination index columns: the reference's stages of the edge list. -/
abbrev NRM := Cert.ReferenceIdeal.Read.val_main_v27 (F := Ideal) (E m c)
abbrev SIDX := Cert.ReferenceIdeal.Read.val_main_v33 (F := Ideal) (E m c)
abbrev DIDX := Cert.ReferenceIdeal.Read.val_main_v38 (F := Ideal) (E m c)

/-- The features times the first weight matrix. -/
abbrev XW1 : (⟨2, ![50000, 128]⟩ : Shape).Idx → EReal :=
  mm (M := 50000) (K := 128) (N := 128) (m ((c : Thread nD τ).loc main_arg0)) (m ((c : Thread nD τ).loc main_arg2))

/-- The hidden features: the first layer's positive part. -/
abbrev HID : (⟨2, ![50000, 128]⟩ : Shape).Idx → EReal :=
  relu (s := ⟨2, ![50000, 128]⟩) (comb (N := 50000) (C := 128)
    (agg (N := 50000) (R := 800000) (C := 128) (by decide) (NRM m c) (SIDX m c) (DIDX m c) (XW1 m c)) (XW1 m c) (D2C m c)
    (fun q => (m ((c : Thread nD τ).loc main_arg3) : (⟨1, ![128]⟩ : Shape).Idx → EReal) (ix1 q)))

/-! ## After the first launch -/

theorem w2_v13 : W2 m ρ c (Proc.devRef .tc main_v13) = XW1 m c := by
  refine (W2_arr m ρ c 2).trans ((Reg0.arr (V1 m ρ) c).trans ?_)
  show mm (M := 50000) (K := 128) (N := 128) (W1 m ρ c (Proc.devRef .tc main_arg0)) (W1 m ρ c (Proc.devRef .tc main_arg2)) = _
  rw [w1_arg0, w1_arg2]
theorem w2_v1 : W2 m ρ c (Proc.devRef .tc main_v1) = SRC m c :=
  (W2_of_ne m ρ c main_v1 (by decide)).trans (w1_v1 m ρ c)
theorem w2_v3 : W2 m ρ c (Proc.devRef .tc main_v3) = DST m c :=
  (W2_of_ne m ρ c main_v3 (by decide)).trans (w1_v3 m ρ c)
theorem w2_v10 : W2 m ρ c (Proc.devRef .tc main_v10) = DIS m c :=
  (W2_of_ne m ρ c main_v10 (by decide)).trans (w1_v10 m ρ c)
theorem w2_v12 : W2 m ρ c (Proc.devRef .tc main_v12) = D2C m c :=
  (W2_of_ne m ρ c main_v12 (by decide)).trans (w1_v12 m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)

/-! ## After the host operations between the first two launches -/

set_option maxHeartbeats 2000000 in
theorem w3_v41 : W3 m ρ c (Proc.devRef .tc main_v41)
    = agg (N := 50000) (R := 800000) (C := 128) (by decide) (NRM m c) (SIDX m c) (DIDX m c) (XW1 m c) := by
  show StableHlo.after hostOps1 (W2 m ρ c) (Proc.devRef .tc main_v41) = _
  after_results_simp
  rw [w2_v1, w2_v3, w2_v10, w2_v13]
  exact hostAgg_eq (N := 50000) (R := 800000) (C := 128) (by decide) _ rfl rfl rfl rfl _ rfl rfl rfl rfl rfl rfl rfl _ _
    (NRM m c) (SIDX m c) (DIDX m c) (XW1 m c)
set_option maxHeartbeats 1000000 in
theorem w3_v13 : W3 m ρ c (Proc.devRef .tc main_v13) = XW1 m c := by
  show StableHlo.after hostOps1 (W2 m ρ c) (Proc.devRef .tc main_v13) = _
  after_results_simp
  exact w2_v13 m ρ c
set_option maxHeartbeats 1000000 in
theorem w3_v12 : W3 m ρ c (Proc.devRef .tc main_v12) = D2C m c := by
  show StableHlo.after hostOps1 (W2 m ρ c) (Proc.devRef .tc main_v12) = _
  after_results_simp
  exact w2_v12 m ρ c
set_option maxHeartbeats 1000000 in
theorem w3_v1 : W3 m ρ c (Proc.devRef .tc main_v1) = SRC m c := by
  show StableHlo.after hostOps1 (W2 m ρ c) (Proc.devRef .tc main_v1) = _
  after_results_simp
  exact w2_v1 m ρ c
set_option maxHeartbeats 1000000 in
theorem w3_v3 : W3 m ρ c (Proc.devRef .tc main_v3) = DST m c := by
  show StableHlo.after hostOps1 (W2 m ρ c) (Proc.devRef .tc main_v3) = _
  after_results_simp
  exact w2_v3 m ρ c
set_option maxHeartbeats 1000000 in
theorem w3_v10 : W3 m ρ c (Proc.devRef .tc main_v10) = DIS m c := by
  show StableHlo.after hostOps1 (W2 m ρ c) (Proc.devRef .tc main_v10) = _
  after_results_simp
  exact w2_v10 m ρ c
set_option maxHeartbeats 1000000 in
theorem w3_arg4 : W3 m ρ c (Proc.devRef .tc main_arg4) = m ((c : Thread nD τ).loc main_arg4) := by
  show StableHlo.after hostOps1 (W2 m ρ c) (Proc.devRef .tc main_arg4) = _
  after_results_simp
  exact w2_arg4 m ρ c
set_option maxHeartbeats 1000000 in
theorem w3_arg5 : W3 m ρ c (Proc.devRef .tc main_arg5) = m ((c : Thread nD τ).loc main_arg5) := by
  show StableHlo.after hostOps1 (W2 m ρ c) (Proc.devRef .tc main_arg5) = _
  after_results_simp
  exact w2_arg5 m ρ c
set_option maxHeartbeats 1000000 in
theorem w3_arg6 : W3 m ρ c (Proc.devRef .tc main_arg6) = m ((c : Thread nD τ).loc main_arg6) := by
  show StableHlo.after hostOps1 (W2 m ρ c) (Proc.devRef .tc main_arg6) = _
  after_results_simp
  exact w2_arg6 m ρ c
set_option maxHeartbeats 1000000 in
theorem w3_arg7 : W3 m ρ c (Proc.devRef .tc main_arg7) = m ((c : Thread nD τ).loc main_arg7) := by
  show StableHlo.after hostOps1 (W2 m ρ c) (Proc.devRef .tc main_arg7) = _
  after_results_simp
  exact w2_arg7 m ρ c

set_option maxHeartbeats 1000000 in
/-- The first bias as a row, read at a column. -/
theorem w3_v42 (q : Fin 128) : (W3 m ρ c (Proc.devRef .tc main_v42) : S1x128.Idx → EReal) (ix2 (0 : Fin 1) q)
    = (m ((c : Thread nD τ).loc main_arg3) : (⟨1, ![128]⟩ : Shape).Idx → EReal) (ix1 q) := by
  have h : W3 m ρ c (Proc.devRef .tc main_v42) = shapeCast S1x128 (m ((c : Thread nD τ).loc main_arg3)) shapeCasts_S128_S1x128 := by
    show StableHlo.after hostOps1 (W2 m ρ c) (Proc.devRef .tc main_v42) = _
    after_results_simp
    rw [w2_arg3]
    rfl
  rw [h]
  exact shapeCast_a_1a_apply _ _ 0 q

/-! ## After the second launch -/

theorem w4_v43 : W4 m ρ c (Proc.devRef .tc main_v43) = HID m c := by
  refine (W4_arr m ρ c 4).trans ((Reg1.arr (V3 m ρ) c).trans ?_)
  show relu (s := ⟨2, ![50000, 128]⟩) (comb (N := 50000) (C := 128) (W3 m ρ c (Proc.devRef .tc main_v41)) (W3 m ρ c (Proc.devRef .tc main_v13))
    (W3 m ρ c (Proc.devRef .tc main_v12)) (fun q => (W3 m ρ c (Proc.devRef .tc main_v42) : S1x128.Idx → EReal) (ix2 (0 : Fin 1) q))) = _
  rw [w3_v41, w3_v13, w3_v12, show (fun q => (W3 m ρ c (Proc.devRef .tc main_v42) : S1x128.Idx → EReal) (ix2 (0 : Fin 1) q))
    = fun q => (m ((c : Thread nD τ).loc main_arg3) : (⟨1, ![128]⟩ : Shape).Idx → EReal) (ix1 q) from funext (w3_v42 m ρ c)]
theorem w4_v1 : W4 m ρ c (Proc.devRef .tc main_v1) = SRC m c :=
  (W4_of_ne m ρ c main_v1 (by decide)).trans (w3_v1 m ρ c)
theorem w4_v3 : W4 m ρ c (Proc.devRef .tc main_v3) = DST m c :=
  (W4_of_ne m ρ c main_v3 (by decide)).trans (w3_v3 m ρ c)
theorem w4_v10 : W4 m ρ c (Proc.devRef .tc main_v10) = DIS m c :=
  (W4_of_ne m ρ c main_v10 (by decide)).trans (w3_v10 m ρ c)
theorem w4_v12 : W4 m ρ c (Proc.devRef .tc main_v12) = D2C m c :=
  (W4_arr m ρ c 2).trans ((((dat1 (V3 m ρ) c).arrAt_in 2 rfl _).trans (A_eq1 (V3 m ρ) c 2)).trans (w3_v12 m ρ c))
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)

end Cert.KernelIdeal.KV

end
-- ==== Proof.Reg2.lean ====
/-
  Launch 2 of the program, a matrix product tiled over the rows: grid point `t` multiplies rows `2000 t … 2000 t + 1999`
  of its left operand by the whole right operand (both rounded to a narrower format first, which at the extended reals
  is the identity) into a zero accumulator, and writes the 2000 × 128 product back over the same rows of the result.
  So the result array ends at the product of the two operand arrays as the launch finds them: element `(r, q)` is the
  sum over `k` of `left (r, k) · right (k, q)`.
-/
import proofs.«125816_j90460601189230_1_alg».proof.Proof.Gen.KernelIdeal.Frame
import proofs.«125816_j90460601189230_1_alg».proof.Proof.LibPlainDot
import proofs.«125816_j90460601189230_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.Gcn

theorem hz : (![0, 0] : Fin 2 → Nat) = fun _ => 0 := funext fun a => by fin_cases a <;> rfl

/-- The printed contraction is the plain `M × K` by `K × N` one. -/
theorem dot_plain : dot_S2000x128_S128x128_S2000x128_1_0_0_1_n_n = DotDims.plain 2000 128 128 := rfl

/-- The body's one stored value at an index: the sum over the contracted coordinate of the products of the loaded
    blocks' elements. -/
theorem pay_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  try simp only [shapeCast_self]
  rw [dot_plain]
  exact Cert.Lib.PlainDot.matmul_zero_apply 2000 128 128 none _ _ (ix2 p q)

variable (V : (c : Dev nD) → (b : Ref sig .tc) → Buf (Elt Ideal) ((c : Thread nD τ).loc b))

/-- Where the windows' blocks sit at grid point `t`: the left operand's and the result's at row block `t`, the right
    operand's at the origin. Decided over the 25 points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- The left operand's block at point `t` is rows `2000 t …` of its array. -/
theorem blk0_apply (c : Dev nD) (t : Fin cfg2.N) (x : S2000x128.Idx) (k : S50000x128.Idx)
    (hk0 : (k 0).val = 2000 * t.val + (x 0).val) (hk1 : (k 1).val = (x 1).val) :
    (iblk2 V c 0 t : Vec Ideal S2000x128 .f32) x = (V c main_v43 : S50000x128.Idx → EReal) k := by
  obtain ⟨e0, e1, -⟩ := idx_facts t
  unfold iblk2
  rw [View.read_apply]
  show V c main_v43 _ = V c main_v43 _
  congr 1
  funext a
  apply Fin.ext
  match a with
  | ⟨0, _⟩ => show win2_0.index t 0 * 2000 + 1 * (x 0).val = (k 0).val; rw [e0, hk0]; omega
  | ⟨1, _⟩ => show win2_0.index t 1 * 128 + 1 * (x 1).val = (k 1).val; rw [e1, hk1]; omega

/-- The right operand's block at any point is its whole array. -/
theorem blk1_apply (c : Dev nD) (t : Fin cfg2.N) (x : S128x128.Idx) (k : S128x128.Idx)
    (hk0 : (k 0).val = (x 0).val) (hk1 : (k 1).val = (x 1).val) :
    (iblk2 V c 1 t : Vec Ideal S128x128 .f32) x = (V c main_v44 : S128x128.Idx → EReal) k := by
  obtain ⟨-, -, e2, e3, -⟩ := idx_facts t
  unfold iblk2
  rw [View.read_apply]
  show V c main_v44 _ = V c main_v44 _
  congr 1
  funext a
  apply Fin.ext
  match a with
  | ⟨0, _⟩ => show win2_1.index t 0 * 128 + 1 * (x 0).val = (k 0).val; rw [e2, hk0]; omega
  | ⟨1, _⟩ => show win2_1.index t 1 * 128 + 1 * (x 1).val = (k 1).val; rw [e3, hk1]; omega

/-- What point `t` writes back is block `t` of the product of the two arrays. -/
theorem flushed_eq (c : Dev nD) (t : Fin cfg2.N) :
    (dat2 V c).flushed 2 t = ((cfg2.win 2).blk t).view.read (Elt Ideal)
      (mm (M := 50000) (K := 128) (N := 128) (V c main_v43) (V c main_v44)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k2_pay1 (iblk2 V c 0 t) (iblk2 V c 1 t) (ix2 p q)
    = mm (M := 50000) (K := 128) (N := 128) (V c main_v43) (V c main_v44) (((cfg2.win 2).blk t).view.emb (ix2 p q))
  rw [pay_apply (iblk2 V c 0 t) (iblk2 V c 1 t) p q]
  show _ = mm (M := 50000) (K := 128) (N := 128) (V c main_v43) (V c main_v44) (((cfg2.win 2).blk t).view.emb (ix2 p q))
  unfold mm
  refine Finset.sum_congr rfl fun k _ => ?_
  rw [blk0_apply V c t (ix2 p k) (ix2 ((((cfg2.win 2).blk t).view.emb (ix2 p q)) 0) k)
      (by show win2_2.index t 0 * 2000 + 1 * p.val = 2000 * t.val + p.val; rw [e4]; omega) rfl,
    blk1_apply V c t (ix2 k q) (ix2 k ((((cfg2.win 2).blk t).view.emb (ix2 p q)) 1)) rfl
      (by show win2_2.index t 1 * 128 + 1 * q.val = q.val; rw [e5]; omega)]

/-- An index of the result array is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every row is in the block of the point its number divided by 2000 names. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, e4, e5⟩ := idx_facts ⟨(i 0).val / 2000, hlt⟩
  have e4' : win2_2.index ⟨(i 0).val / 2000, hlt⟩ 0 = (i 0).val / 2000 := e4
  refine ⟨⟨(i 0).val / 2000, hlt⟩, flush2_2 _, ?_⟩
  rw [mem_blk]
  intro a
  match a with
  | ⟨0, _⟩ =>
    show win2_2.index ⟨(i 0).val / 2000, hlt⟩ 0 * 2000 ≤ (i 0).val ∧ (i 0).val < win2_2.index ⟨(i 0).val / 2000, hlt⟩ 0 * 2000 + 2000
    rw [e4']; omega
  | ⟨1, _⟩ =>
    show win2_2.index ⟨(i 0).val / 2000, hlt⟩ 1 * 128 ≤ (i 1).val ∧ (i 1).val < win2_2.index ⟨(i 0).val / 2000, hlt⟩ 1 * 128 + 128
    rw [e5]; omega

/-- THE RESULT ARRAY after the launch: the product of the operand arrays as the launch finds them. -/
theorem arr (c : Dev nD) : (dat2 V c).arrAt 2 cfg2.N
    = mm (M := 50000) (K := 128) (N := 128) (V c main_v43) (V c main_v44) :=
  (dat2 V c).arrAt_eq_of_cover 2 _ (fun t _ => flushed_eq V c t) cover

end Cert.KernelIdeal.Reg2

end
-- ==== Proof.Reg3.lean ====
/-
  Launch 3 of the program, the pointwise combine tiled over the rows: grid point `t` reads rows `2000 t … 2000 t + 1999`
  of the aggregated features, of the node's own features and of the per-node scale column, and the whole bias row, and
  writes `(aggregate + own · scale) + bias` back over the same rows of the result. So the result
  array ends at that function of the four arrays as the launch finds them, element by element.
-/
import proofs.«125816_j90460601189230_1_alg».proof.Proof.Gen.KernelIdeal.Frame
import proofs.«125816_j90460601189230_1_alg».proof.Proof.LibColBroadcast
import proofs.«125816_j90460601189230_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen Cert.Gcn Cert.Lib.ColBroadcast

theorem hz : (![0, 0] : Fin 2 → Nat) = fun _ => 0 := funext fun a => by fin_cases a <;> rfl

/-- The body's one stored value at an index. -/
theorem pay_apply (v0 v2 : Vec Ideal S2000x128 .f32) (v4 : Vec Ideal S2000x1 .f32) (v9 : Vec Ideal S1x128 .f32)
    (p : Fin 2000) (q : Fin 128) :
    k3_pay1 v0 v2 v4 v9 (ix2 p q)
      = (v0 (ix2 p q) + v2 (ix2 p q) * v4 (ix2 p (0 : Fin 1))) + v9 (ix2 (0 : Fin 1) q) := by
  unfold k3_pay1
  simp only [shapeCast_self]
  show (v0 (ix2 p q) + v2 (ix2 p q) * broadcastTo S2000x128 v4 broadcasts_S2000x1_S2000x128 (ix2 p q))
      + broadcastTo S2000x128 v9 broadcasts_S1x128_S2000x128 (ix2 p q) = _
  rw [broadcastTo_a1_ab_apply, broadcastTo_1b_ab_apply]

variable (V : (c : Dev nD) → (b : Ref sig .tc) → Buf (Elt Ideal) ((c : Thread nD τ).loc b))

/-- Where the windows' blocks sit at grid point `t`: the three row-tiled operands' and the result's at row block `t`,
    the bias row's at the origin. Decided over the 25 points. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0)

/-- The aggregate's block at point `t` is rows `2000 t …` of its array. -/
theorem blk0_apply (c : Dev nD) (t : Fin cfg3.N) (x : S2000x128.Idx) (k : S50000x128.Idx)
    (hk0 : (k 0).val = 2000 * t.val + (x 0).val) (hk1 : (k 1).val = (x 1).val) :
    (iblk3 V c 0 t : Vec Ideal S2000x128 .f32) x = (V c main_v74 : S50000x128.Idx → EReal) k := by
  obtain ⟨e0, e1, -⟩ := idx_facts t
  unfold iblk3
  rw [View.read_apply]
  show V c main_v74 _ = V c main_v74 _
  congr 1
  funext a
  apply Fin.ext
  match a with
  | ⟨0, _⟩ => show win3_0.index t 0 * 2000 + 1 * (x 0).val = (k 0).val; rw [e0, hk0]; omega
  | ⟨1, _⟩ => show win3_0.index t 1 * 128 + 1 * (x 1).val = (k 1).val; rw [e1, hk1]; omega

/-- The own features' block at point `t` is rows `2000 t …` of their array. -/
theorem blk1_apply (c : Dev nD) (t : Fin cfg3.N) (x : S2000x128.Idx) (k : S50000x128.Idx)
    (hk0 : (k 0).val = 2000 * t.val + (x 0).val) (hk1 : (k 1).val = (x 1).val) :
    (iblk3 V c 1 t : Vec Ideal S2000x128 .f32) x = (V c main_v46 : S50000x128.Idx → EReal) k := by
  obtain ⟨-, -, e0, e1, -⟩ := idx_facts t
  unfold iblk3
  rw [View.read_apply]
  show V c main_v46 _ = V c main_v46 _
  congr 1
  funext a
  apply Fin.ext
  match a with
  | ⟨0, _⟩ => show win3_1.index t 0 * 2000 + 1 * (x 0).val = (k 0).val; rw [e0, hk0]; omega
  | ⟨1, _⟩ => show win3_1.index t 1 * 128 + 1 * (x 1).val = (k 1).val; rw [e1, hk1]; omega

/-- The scale column's block at point `t` is rows `2000 t …` of the column. -/
theorem blk2_apply (c : Dev nD) (t : Fin cfg3.N) (x : S2000x1.Idx) (k : S50000x1.Idx)
    (hk0 : (k 0).val = 2000 * t.val + (x 0).val) (hk1 : (k 1).val = (x 1).val) :
    (iblk3 V c 2 t : Vec Ideal S2000x1 .f32) x = (V c main_v12 : S50000x1.Idx → EReal) k := by
  obtain ⟨-, -, -, -, e0, e1, -⟩ := idx_facts t
  unfold iblk3
  rw [View.read_apply]
  show V c main_v12 _ = V c main_v12 _
  congr 1
  funext a
  apply Fin.ext
  match a with
  | ⟨0, _⟩ => show win3_2.index t 0 * 2000 + 1 * (x 0).val = (k 0).val; rw [e0, hk0]; omega
  | ⟨1, _⟩ => show win3_2.index t 1 * 1 + 1 * (x 1).val = (k 1).val; rw [e1, hk1]; omega

/-- The bias row's block at any point is the whole row. -/
theorem blk3_apply (c : Dev nD) (t : Fin cfg3.N) (x : S1x128.Idx) (k : S1x128.Idx)
    (hk0 : (k 0).val = (x 0).val) (hk1 : (k 1).val = (x 1).val) :
    (iblk3 V c 3 t : Vec Ideal S1x128 .f32) x = (V c main_v75 : S1x128.Idx → EReal) k := by
  obtain ⟨-, -, -, -, -, -, e0, e1, -⟩ := idx_facts t
  unfold iblk3
  rw [View.read_apply]
  show V c main_v75 _ = V c main_v75 _
  congr 1
  funext a
  apply Fin.ext
  match a with
  | ⟨0, _⟩ => show win3_3.index t 0 * 1 + 1 * (x 0).val = (k 0).val; rw [e0, hk0]; omega
  | ⟨1, _⟩ => show win3_3.index t 1 * 128 + 1 * (x 1).val = (k 1).val; rw [e1, hk1]; omega

/-- The function the result array ends at. -/
abbrev G (c : Dev nD) : S50000x128.Idx → EReal :=
  comb (N := 50000) (C := 128) (V c main_v74) (V c main_v46) (V c main_v12) (fun q => (V c main_v75 : S1x128.Idx → EReal) (ix2 (0 : Fin 1) q))

/-- What point `t` writes back is block `t` of that function. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  obtain ⟨-, -, -, -, -, -, -, -, e8, e9⟩ := idx_facts t
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (ix2 p q)
    = G V c (((cfg3.win 4).blk t).view.emb (ix2 p q))
  have hi0 : ((((cfg3.win 4).blk t).view.emb (ix2 p q)) 0).val = 2000 * t.val + p.val := by
    show win3_4.index t 0 * 2000 + 1 * p.val = 2000 * t.val + p.val; rw [e8]; omega
  have hi1 : ((((cfg3.win 4).blk t).view.emb (ix2 p q)) 1).val = q.val := by
    show win3_4.index t 1 * 128 + 1 * q.val = q.val; rw [e9]; omega
  rw [pay_apply (iblk3 V c 0 t) (iblk3 V c 1 t) (iblk3 V c 2 t) (iblk3 V c 3 t) p q,
    blk0_apply V c t (ix2 p q) _ hi0 hi1, blk1_apply V c t (ix2 p q) _ hi0 hi1,
    blk2_apply V c t (ix2 p (0 : Fin 1)) (ix2 ((((cfg3.win 4).blk t).view.emb (ix2 p q)) 0) (0 : Fin 1)) hi0 rfl,
    blk3_apply V c t (ix2 (0 : Fin 1) q) (ix2 (0 : Fin 1) ((((cfg3.win 4).blk t).view.emb (ix2 p q)) 1)) rfl hi1]
  rfl

/-- An index of the result array is in point `t`'s block iff each coordinate is in the block's range on its axis. -/
theorem mem_blk (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v76).slice (win3_4.rect t)).set ↔ _
  rw [View.set_slice_whole, Rect.mem_set_unit]
  exact Iff.rfl

/-- Every row is in the block of the point its number divided by 2000 names. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  have hlt : (i 0).val / 2000 < cfg3.N := by rw [hN]; omega
  obtain ⟨-, -, -, -, -, -, -, -, e8, e9⟩ := idx_facts ⟨(i 0).val / 2000, hlt⟩
  have e8' : win3_4.index ⟨(i 0).val / 2000, hlt⟩ 0 = (i 0).val / 2000 := e8
  refine ⟨⟨(i 0).val / 2000, hlt⟩, flush3_4 _, ?_⟩
  rw [mem_blk]
  intro a
  match a with
  | ⟨0, _⟩ =>
    show win3_4.index ⟨(i 0).val / 2000, hlt⟩ 0 * 2000 ≤ (i 0).val ∧ (i 0).val < win3_4.index ⟨(i 0).val / 2000, hlt⟩ 0 * 2000 + 2000
    rw [e8']; omega
  | ⟨1, _⟩ =>
    show win3_4.index ⟨(i 0).val / 2000, hlt⟩ 1 * 128 ≤ (i 1).val ∧ (i 1).val < win3_4.index ⟨(i 0).val / 2000, hlt⟩ 1 * 128 + 128
    rw [e9]; omega

/-- THE RESULT ARRAY after the launch. -/
theorem arr (c : Dev nD) : (dat3 V c).arrAt 4 cfg3.N = G V c :=
  (dat3 V c).arrAt_eq_of_cover 4 _ (fun t _ => flushed_eq V c t) cover

end Cert.KernelIdeal.Reg3

end
-- ==== Proof.K3.lean ====
/-
  The kernel program at the extended reals, from its second launch to its return, read. The two output weight matrices are put
  side by side and the two biases end to end; the third launch multiplies the hidden features by the wide matrix; the
  host operations after it take the neighbour sum of that product with the same edge weights and index columns as
  before; the fourth launch combines as the second did, without the positive part; and the two results are the left
  and the right 64 columns of what it leaves.
-/
import proofs.«125816_j90460601189230_1_alg».proof.Proof.K2
import proofs.«125816_j90460601189230_1_alg».proof.Proof.Reg2
import proofs.«125816_j90460601189230_1_alg».proof.Proof.Reg3

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen Cert.Gcn

variable (m : (ℓ : Loc nD τ sig) → Buf (Elt Ideal) ℓ) (ρ : Dev nD → PrngReg) (c : Dev nD)

/-- The two output weight matrices side by side, and the two biases end to end. -/
abbrev WCAT : (⟨2, ![128, 128]⟩ : Shape).Idx → EReal :=
  concatenate S128x128 1 [⟨S128x64, m ((c : Thread nD τ).loc main_arg4)⟩, ⟨S128x64, m ((c : Thread nD τ).loc main_arg6)⟩] concatenates_S128x64_S128x64_S128x128_d1
abbrev BCAT : (⟨1, ![128]⟩ : Shape).Idx → EReal :=
  concatenate S128 0 [⟨S64, m ((c : Thread nD τ).loc main_arg5)⟩, ⟨S64, m ((c : Thread nD τ).loc main_arg7)⟩] concatenates_S64_S64_S128_d0

/-- The hidden features times the wide matrix. -/
abbrev XW2 : (⟨2, ![50000, 128]⟩ : Shape).Idx → EReal :=
  mm (M := 50000) (K := 128) (N := 128) (HID m c) (WCAT m c)

/-- The second layer on the wide matrix. -/
abbrev OUTW : (⟨2, ![50000, 128]⟩ : Shape).Idx → EReal :=
  comb (N := 50000) (C := 128)
    (agg (N := 50000) (R := 800000) (C := 128) (by decide) (NRM m c) (SIDX m c) (DIDX m c) (XW2 m c)) (XW2 m c) (D2C m c)
    (fun q => BCAT m c (ix1 q))

/-! ## After the two concatenations -/

set_option maxHeartbeats 1000000 in
theorem w5_v44 : W5 m ρ c (Proc.devRef .tc main_v44) = WCAT m c := by
  show StableHlo.after hostOps2 (W4 m ρ c) (Proc.devRef .tc main_v44) = _
  after_results
  rw [w4_arg4, w4_arg6]
set_option maxHeartbeats 1000000 in
theorem w5_v45 : W5 m ρ c (Proc.devRef .tc main_v45) = BCAT m c := by
  show StableHlo.after hostOps2 (W4 m ρ c) (Proc.devRef .tc main_v45) = _
  after_results
  rw [w4_arg5, w4_arg7]
set_option maxHeartbeats 1000000 in
theorem w5_v43 : W5 m ρ c (Proc.devRef .tc main_v43) = HID m c := by
  show StableHlo.after hostOps2 (W4 m ρ c) (Proc.devRef .tc main_v43) = _
  after_results
  exact w4_v43 m ρ c
set_option maxHeartbeats 1000000 in
theorem w5_v1 : W5 m ρ c (Proc.devRef .tc main_v1) = SRC m c := by
  show StableHlo.after hostOps2 (W4 m ρ c) (Proc.devRef .tc main_v1) = _
  after_results
  exact w4_v1 m ρ c
set_option maxHeartbeats 1000000 in
theorem w5_v3 : W5 m ρ c (Proc.devRef .tc main_v3) = DST m c := by
  show StableHlo.after hostOps2 (W4 m ρ c) (Proc.devRef .tc main_v3) = _
  after_results
  exact w4_v3 m ρ c
set_option maxHeartbeats 1000000 in
theorem w5_v10 : W5 m ρ c (Proc.devRef .tc main_v10) = DIS m c := by
  show StableHlo.after hostOps2 (W4 m ρ c) (Proc.devRef .tc main_v10) = _
  after_results
  exact w4_v10 m ρ c
set_option maxHeartbeats 1000000 in
theorem w5_v12 : W5 m ρ c (Proc.devRef .tc main_v12) = D2C m c := by
  show StableHlo.after hostOps2 (W4 m ρ c) (Proc.devRef .tc main_v12) = _
  after_results
  exact w4_v12 m ρ c

/-! ## After the third launch -/

theorem w6_v46 : W6 m ρ c (Proc.devRef .tc main_v46) = XW2 m c := by
  refine (W6_arr m ρ c 2).trans ((Reg2.arr (V5 m ρ) c).trans ?_)
  show mm (M := 50000) (K := 128) (N := 128) (W5 m ρ c (Proc.devRef .tc main_v43)) (W5 m ρ c (Proc.devRef .tc main_v44)) = _
  rw [w5_v43, w5_v44]
theorem w6_v1 : W6 m ρ c (Proc.devRef .tc main_v1) = SRC m c :=
  (W6_of_ne m ρ c main_v1 (by decide)).trans (w5_v1 m ρ c)
theorem w6_v3 : W6 m ρ c (Proc.devRef .tc main_v3) = DST m c :=
  (W6_of_ne m ρ c main_v3 (by decide)).trans (w5_v3 m ρ c)
theorem w6_v10 : W6 m ρ c (Proc.devRef .tc main_v10) = DIS m c :=
  (W6_of_ne m ρ c main_v10 (by decide)).trans (w5_v10 m ρ c)
theorem w6_v12 : W6 m ρ c (Proc.devRef .tc main_v12) = D2C m c :=
  (W6_of_ne m ρ c main_v12 (by decide)).trans (w5_v12 m ρ c)
theorem w6_v45 : W6 m ρ c (Proc.devRef .tc main_v45) = BCAT m c :=
  (W6_of_ne m ρ c main_v45 (by decide)).trans (w5_v45 m ρ c)

/-! ## After the host operations between the last two launches -/

set_option maxHeartbeats 2000000 in
theorem w7_v74 : W7 m ρ c (Proc.devRef .tc main_v74)
    = agg (N := 50000) (R := 800000) (C := 128) (by decide) (NRM m c) (SIDX m c) (DIDX m c) (XW2 m c) := by
  show StableHlo.after hostOps3 (W6 m ρ c) (Proc.devRef .tc main_v74) = _
  after_results_simp
  rw [w6_v1, w6_v3, w6_v10, w6_v46]
  exact hostAgg_eq (N := 50000) (R := 800000) (C := 128) (by decide) _ rfl rfl rfl rfl _ rfl rfl rfl rfl rfl rfl rfl _ _
    (NRM m c) (SIDX m c) (DIDX m c) (XW2 m c)
set_option maxHeartbeats 1000000 in
theorem w7_v46 : W7 m ρ c (Proc.devRef .tc main_v46) = XW2 m c := by
  show StableHlo.after hostOps3 (W6 m ρ c) (Proc.devRef .tc main_v46) = _
  after_results_simp
  exact w6_v46 m ρ c
set_option maxHeartbeats 1000000 in
theorem w7_v12 : W7 m ρ c (Proc.devRef .tc main_v12) = D2C m c := by
  show StableHlo.after hostOps3 (W6 m ρ c) (Proc.devRef .tc main_v12) = _
  after_results_simp
  exact w6_v12 m ρ c

set_option maxHeartbeats 1000000 in
/-- The joined bias as a row, read at a column. -/
theorem w7_v75 (q : Fin 128) : (W7 m ρ c (Proc.devRef .tc main_v75) : S1x128.Idx → EReal) (ix2 (0 : Fin 1) q)
    = BCAT m c (ix1 q) := by
  have h : W7 m ρ c (Proc.devRef .tc main_v75) = shapeCast S1x128 (BCAT m c) shapeCasts_S128_S1x128 := by
    show StableHlo.after hostOps3 (W6 m ρ c) (Proc.devRef .tc main_v75) = _
    after_results_simp
    rw [w6_v45]
    rfl
  rw [h]
  exact shapeCast_a_1a_apply _ _ 0 q

/-! ## After the fourth launch, and the two slices -/

theorem w8_v76 : W8 m ρ c (Proc.devRef .tc main_v76) = OUTW m c := by
  refine (W8_arr m ρ c 4).trans ((Reg3.arr (V7 m ρ) c).trans ?_)
  show comb (N := 50000) (C := 128) (W7 m ρ c (Proc.devRef .tc main_v74)) (W7 m ρ c (Proc.devRef .tc main_v46))
    (W7 m ρ c (Proc.devRef .tc main_v12)) (fun q => (W7 m ρ c (Proc.devRef .tc main_v75) : S1x128.Idx → EReal) (ix2 (0 : Fin 1) q)) = _
  rw [w7_v74, w7_v46, w7_v12, show (fun q => (W7 m ρ c (Proc.devRef .tc main_v75) : S1x128.Idx → EReal) (ix2 (0 : Fin 1) q))
    = fun q => BCAT m c (ix1 q) from funext (w7_v75 m ρ c)]

set_option maxHeartbeats 1000000 in
theorem w9_v77 : W9 m ρ c (Proc.devRef .tc main_v77)
    = extractStridedSlice S50000x64 ![0, 0] (OUTW m c) slices_S50000x128_S50000x64_0_0 := by
  show StableHlo.after hostOps4 (W8 m ρ c) (Proc.devRef .tc main_v77) = _
  after_results
  rw [w8_v76]
set_option maxHeartbeats 1000000 in
theorem w9_v78 : W9 m ρ c (Proc.devRef .tc main_v78)
    = extractStridedSlice S50000x64 ![0, 64] (OUTW m c) slices_S50000x128_S50000x64_0_64 := by
  show StableHlo.after hostOps4 (W8 m ρ c) (Proc.devRef .tc main_v78) = _
  after_results
  rw [w8_v76]

end Cert.KernelIdeal.KV

end
-- ==== Proof.RefValue.lean ====
/-
  The reference program's two results as the layer functions of `Cert.Gcn`. Its stages are read in order: the first
  product is `mm`; the gather, scale, scatter-add chain over it is the neighbour sum; adding the scaled own features and
  the broadcast bias is `comb`; the maximum with zero is the positive part, which gives the hidden features. Each output
  is then the same layer on the hidden features' product with its own weight matrix. The edge weights, the two index
  columns and the squared inverse degrees are recomputed by the reference for every layer with the same operations on the
  same edge list: the later copies are the first ones.
-/
import proofs.«125816_j90460601189230_1_alg».proof.Proof.Gen.ReferenceIdeal.Read
import proofs.«125816_j90460601189230_1_alg».proof.Proof.LibHostLayer

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.Gcn

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The features times the first weight matrix. -/
abbrev XW1 : (⟨2, ![50000, 128]⟩ : Shape).Idx → EReal := mm (M := 50000) (K := 128) (N := 128) x0 x2

/-- The hidden features. -/
abbrev HID : (⟨2, ![50000, 128]⟩ : Shape).Idx → EReal :=
  relu (s := ⟨2, ![50000, 128]⟩) (comb (N := 50000) (C := 128)
    (agg (N := 50000) (R := 800000) (C := 128) (by decide) (val_main_v27 (F := Ideal) x1) (val_main_v33 (F := Ideal) x1)
      (val_main_v38 (F := Ideal) x1) (XW1 x0 x2)) (XW1 x0 x2) (val_main_v41 (F := Ideal) x1)
    (fun q => (x3 : (⟨1, ![128]⟩ : Shape).Idx → EReal) (ix1 q)))

/-- One output: the second layer on the hidden features with weight matrix `W` and bias `b`. -/
abbrev OUT (W : (⟨2, ![128, 64]⟩ : Shape).Idx → EReal) (b : (⟨1, ![64]⟩ : Shape).Idx → EReal) :
    (⟨2, ![50000, 64]⟩ : Shape).Idx → EReal :=
  comb (N := 50000) (C := 64)
    (agg (N := 50000) (R := 800000) (C := 64) (by decide) (val_main_v27 (F := Ideal) x1) (val_main_v33 (F := Ideal) x1)
      (val_main_v38 (F := Ideal) x1) (mm (M := 50000) (K := 128) (N := 64) (HID x0 x1 x2 x3) W))
    (mm (M := 50000) (K := 128) (N := 64) (HID x0 x1 x2 x3) W) (val_main_v41 (F := Ideal) x1)
    (fun q => b (ix1 q))

theorem v11_eq : val_main_v11 (F := Ideal) x0 x2 = XW1 x0 x2 := by
  unfold val_main_v11
  exact hostDot_eq _ rfl x0 x2

set_option maxHeartbeats 1000000 in
theorem v39_eq : val_main_v39 (F := Ideal) x0 x1 x2
    = agg (N := 50000) (R := 800000) (C := 128) (by decide) (val_main_v27 (F := Ideal) x1) (val_main_v33 (F := Ideal) x1)
        (val_main_v38 (F := Ideal) x1) (XW1 x0 x2) := by
  unfold val_main_v39 val_main_v36 val_main_v35 val_main_v34 val_main_v37 val_main_cst_7
  rw [v11_eq]
  exact hostAgg_eq (N := 50000) (R := 800000) (C := 128) (by decide) _ rfl rfl rfl rfl _ rfl rfl rfl rfl rfl rfl rfl _ _ _ _ _ _

set_option maxHeartbeats 1000000 in
theorem v48_eq : val_main_v48 (F := Ideal) x0 x1 x2 x3 = HID x0 x1 x2 x3 := by
  unfold val_main_v48 val_main_call0_v0 val_main_call0_cst val_main_v47 val_main_v44 val_main_v43 val_main_v42 val_main_v46 val_main_v45
  rw [v39_eq, v11_eq]
  refine (hostRelu_eq (s := ⟨2, ![50000, 128]⟩) _ _).trans ?_
  refine congrArg (relu (s := ⟨2, ![50000, 128]⟩)) ?_
  exact hostComb_eq (N := 50000) (C := 128) _ _ _ _ _ _ _

/-! ## The later copies of the edge list's stages are the first ones -/

theorem v65_eq : val_main_v65 (F := Ideal) x1 = val_main_v27 (F := Ideal) x1 := rfl
theorem v71_eq : val_main_v71 (F := Ideal) x1 = val_main_v33 (F := Ideal) x1 := rfl
theorem v76_eq : val_main_v76 (F := Ideal) x1 = val_main_v38 (F := Ideal) x1 := rfl
theorem v79_eq : val_main_v79 (F := Ideal) x1 = val_main_v41 (F := Ideal) x1 := rfl
theorem v102_eq : val_main_v102 (F := Ideal) x1 = val_main_v27 (F := Ideal) x1 := rfl
theorem v108_eq : val_main_v108 (F := Ideal) x1 = val_main_v33 (F := Ideal) x1 := rfl
theorem v113_eq : val_main_v113 (F := Ideal) x1 = val_main_v38 (F := Ideal) x1 := rfl
theorem v116_eq : val_main_v116 (F := Ideal) x1 = val_main_v41 (F := Ideal) x1 := rfl

/-! ## The first output -/

theorem v49_eq : val_main_v49 (F := Ideal) x0 x1 x2 x3 x4 = mm (M := 50000) (K := 128) (N := 64) (HID x0 x1 x2 x3) x4 := by
  unfold val_main_v49
  rw [v48_eq]
  exact hostDot_eq _ rfl _ x4

set_option maxHeartbeats 1000000 in
theorem v77_eq : val_main_v77 (F := Ideal) x0 x1 x2 x3 x4
    = agg (N := 50000) (R := 800000) (C := 64) (by decide) (val_main_v27 (F := Ideal) x1) (val_main_v33 (F := Ideal) x1)
        (val_main_v38 (F := Ideal) x1) (mm (M := 50000) (K := 128) (N := 64) (HID x0 x1 x2 x3) x4) := by
  unfold val_main_v77 val_main_v74 val_main_v73 val_main_v72 val_main_v75 val_main_cst_14
  rw [v49_eq, v65_eq, v71_eq, v76_eq]
  exact hostAgg_eq (N := 50000) (R := 800000) (C := 64) (by decide) _ rfl rfl rfl rfl _ rfl rfl rfl rfl rfl rfl rfl _ _ _ _ _ _

set_option maxHeartbeats 1000000 in
theorem v85_eq : val_main_v85 (F := Ideal) x0 x1 x2 x3 x4 x5 = OUT x0 x1 x2 x3 x4 x5 := by
  unfold val_main_v85 val_main_v82 val_main_v81 val_main_v80 val_main_v84 val_main_v83
  rw [v77_eq, v49_eq, v79_eq]
  exact hostComb_eq (N := 50000) (C := 64) _ _ _ _ _ _ _

/-! ## The second output: the same with the other weight matrix and bias -/

theorem v86_eq : val_main_v86 (F := Ideal) x0 x1 x2 x3 x4 = mm (M := 50000) (K := 128) (N := 64) (HID x0 x1 x2 x3) x4 := by
  unfold val_main_v86
  rw [v48_eq]
  exact hostDot_eq _ rfl _ x4

set_option maxHeartbeats 1000000 in
theorem v114_eq : val_main_v114 (F := Ideal) x0 x1 x2 x3 x4
    = agg (N := 50000) (R := 800000) (C := 64) (by decide) (val_main_v27 (F := Ideal) x1) (val_main_v33 (F := Ideal) x1)
        (val_main_v38 (F := Ideal) x1) (mm (M := 50000) (K := 128) (N := 64) (HID x0 x1 x2 x3) x4) := by
  unfold val_main_v114 val_main_v111 val_main_v110 val_main_v109 val_main_v112 val_main_cst_21
  rw [v86_eq, v102_eq, v108_eq, v113_eq]
  exact hostAgg_eq (N := 50000) (R := 800000) (C := 64) (by decide) _ rfl rfl rfl rfl _ rfl rfl rfl rfl rfl rfl rfl _ _ _ _ _ _

set_option maxHeartbeats 1000000 in
theorem v122_eq : val_main_v122 (F := Ideal) x0 x1 x2 x3 x4 x5 = OUT x0 x1 x2 x3 x4 x5 := by
  unfold val_main_v122 val_main_v119 val_main_v118 val_main_v117 val_main_v121 val_main_v120
  rw [v114_eq, v86_eq, v116_eq]
  exact hostComb_eq (N := 50000) (C := 64) _ _ _ _ _ _ _

end Cert.ReferenceIdeal.RefValue

end
-- ==== Proof.K4.lean ====
/-
  At the extended reals the kernel program's two results are the reference's. The kernel runs its second layer once, on the two
  output weight matrices side by side and the two biases end to end, and cuts the result into its left and right 64
  columns; the reference runs the layer twice, once per weight matrix. Column `j` of the wide layer depends on column
  `j` of the wide product only, which is the hidden features times column `j` of the left matrix when `j < 64` and
  times column `j − 64` of the right matrix otherwise, and likewise for the bias: so each cut is the narrow layer.
-/
import proofs.«125816_j90460601189230_1_alg».proof.Proof.K3
import proofs.«125816_j90460601189230_1_alg».proof.Proof.RefValue

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen Cert.Gcn

variable (m : (ℓ : Loc nD τ sig) → Buf (Elt Ideal) ℓ) (ρ : Dev nD → PrngReg) (c : Dev nD)

set_option maxHeartbeats 1000000 in
/-- The first result is the layer with the first output weight matrix and bias. -/
theorem result0 : W9 m ρ c (Proc.devRef .tc main_v77) = Cert.ReferenceIdeal.RefValue.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [w9_v77]
  funext i
  obtain ⟨p, q, rfl⟩ : ∃ (p : Fin 50000) (q : Fin 64), i = ix2 p q := ⟨i 0, i 1, eq_ix2 i⟩
  have hq : q.val < 64 := q.isLt
  rw [slice2_axis1_apply 0 (OUTW m c) slices_S50000x128_S50000x64_0_0 p q ⟨q.val, by omega⟩ (by simp)]
  refine comb_agg_mm_cols (N := 50000) (R := 800000) (K := 128) (C' := 128) (C := 64) (by decide) (NRM m c) (SIDX m c) (DIDX m c) (D2C m c) (HID m c)
    (WCAT m c) (fun q => BCAT m c (ix1 q)) (m ((c : Thread nD τ).loc main_arg4)) (fun q => (m ((c : Thread nD τ).loc main_arg5) : (⟨1, ![64]⟩ : Shape).Idx → EReal) (ix1 q))
    p ⟨q.val, by omega⟩ q (fun k => ?_) ?_
  · refine concatenate_pair_apply_left (t := S128x128) (s₁ := S128x64) (s₂ := S128x64) 1 _ _ _ (ix2 k ⟨q.val, by omega⟩) rfl (ix2 k q) fun b => ?_
    match b with
    | ⟨0, _⟩ => rfl
    | ⟨1, _⟩ => rfl
  · refine concatenate_pair_apply_left (t := S128) (s₁ := S64) (s₂ := S64) 0 _ _ _ (ix1 ⟨q.val, by omega⟩) rfl (ix1 q) fun b => ?_
    match b with
    | ⟨0, _⟩ => rfl

set_option maxHeartbeats 1000000 in
/-- The second result is the layer with the second output weight matrix and bias. -/
theorem result1 : W9 m ρ c (Proc.devRef .tc main_v78) = Cert.ReferenceIdeal.RefValue.OUT (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  rw [w9_v78]
  funext i
  obtain ⟨p, q, rfl⟩ : ∃ (p : Fin 50000) (q : Fin 64), i = ix2 p q := ⟨i 0, i 1, eq_ix2 i⟩
  have hq : q.val < 64 := q.isLt
  rw [slice2_axis1_apply 64 (OUTW m c) slices_S50000x128_S50000x64_0_64 p q ⟨64 + q.val, by omega⟩ rfl]
  refine comb_agg_mm_cols (N := 50000) (R := 800000) (K := 128) (C' := 128) (C := 64) (by decide) (NRM m c) (SIDX m c) (DIDX m c) (D2C m c) (HID m c)
    (WCAT m c) (fun q => BCAT m c (ix1 q)) (m ((c : Thread nD τ).loc main_arg6)) (fun q => (m ((c : Thread nD τ).loc main_arg7) : (⟨1, ![64]⟩ : Shape).Idx → EReal) (ix1 q))
    p ⟨64 + q.val, by omega⟩ q (fun k => ?_) ?_
  · refine concatenate_pair_apply_right (t := S128x128) (s₁ := S128x64) (s₂ := S128x64) 1 _ _ _ (ix2 k ⟨64 + q.val, by omega⟩) rfl rfl (ix2 k q) (fun b hb => ?_) ?_
    · match b with
      | ⟨0, _⟩ => rfl
      | ⟨1, _⟩ => exact absurd rfl hb
    · show q.val + 64 = 64 + q.val
      omega
  · refine concatenate_pair_apply_right (t := S128) (s₁ := S64) (s₂ := S64) 0 _ _ _ (ix1 ⟨64 + q.val, by omega⟩) rfl rfl (ix1 q) (fun b hb => ?_) ?_
    · match b with
      | ⟨0, _⟩ => exact absurd rfl hb
    · show q.val + 64 = 64 + q.val
      omega

end Cert.KernelIdeal.KV

end
-- ==== Proof.lean ====
/-
  A two-layer graph convolution (symmetric normalisation with self-loops, a positive part between the layers, two output
  heads) as four grid launches among host operations, against the same network written with plain array operations.

  At the extended reals both programs compute, from the same edge list, the same edge weights, index columns and squared
  inverse degrees (one chain of host operations, written once by each program per layer). A layer is
  `((0 + neighbour sum of xw) + xw · d²) + bias` with `xw` the features times a weight matrix. The kernel's matrix launches
  tile the rows and round their operands to a narrower format first, which is the identity here, so each leaves the
  plain product; its combine launches tile the rows of the same pointwise expression the reference writes with
  broadcasts. For the two heads the kernel runs ONE layer on the two weight matrices side by side and cuts the result
  in two, the reference runs the layer per head; a layer's column depends on the same column of the product alone, so
  the cuts are the heads. No law beyond that is needed, and nothing asks the inputs to be finite.

  The three frames are the generated ones (the reference's is its generated run with the results dropped); no
  operation of the kernel was rewritten when it was printed for the extended reals, so there is nothing to preserve.
-/
import proofs.«125816_j90460601189230_1_alg».proof.Defs
import proofs.«125816_j90460601189230_1_alg».proof.Proof.Gen.Kernel
import proofs.«125816_j90460601189230_1_alg».proof.Proof.Gen.Kernel.Frame
import proofs.«125816_j90460601189230_1_alg».proof.Proof.Gen.KernelIdeal
import proofs.«125816_j90460601189230_1_alg».proof.Proof.Gen.KernelIdeal.Frame
import proofs.«125816_j90460601189230_1_alg».proof.Proof.Gen.ReferenceIdeal
import proofs.«125816_j90460601189230_1_alg».proof.Proof.Gen.ReferenceIdeal.Run
import proofs.«125816_j90460601189230_1_alg».proof.Proof.Gen.ReferenceIdeal.Read
import proofs.«125816_j90460601189230_1_alg».proof.Proof.Gen.Pre_finite_inputs
import proofs.«125816_j90460601189230_1_alg».proof.Proof.KRun
import proofs.«125816_j90460601189230_1_alg».proof.Proof.K4
import proofs.«125816_j90460601189230_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 1000000 in
/-- Both programs end with each head at the second layer on the hidden features with that head's weight matrix and
    bias, as functions of the arguments the two memories agree on. -/
theorem algebraic : Cert.algebraic_KernelIdeal_ReferenceIdeal := by
  intro m ρ m' ρ' _ hagree
  refine ⟨fun c => Cert.ReferenceIdeal.RefValue.OUT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.ReferenceIdeal.RefValue.OUT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Named.run_named (F := Ideal) m ρ)
    obtain ⟨h0, h1, hargs⟩ := h c
    exact ⟨h0.trans (Cert.KernelIdeal.KV.result0 m ρ c), h1.trans (Cert.KernelIdeal.KV.result1 m ρ c), hargs⟩
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7⟩ := hagree c
    refine ⟨h0.trans ?_, h1.trans ?_, hargs⟩
    · rw [Cert.ReferenceIdeal.Read.val_main_v85_eq, Cert.ReferenceIdeal.RefValue.v85_eq, a0, a1, a2, a3, a4, a5]
    · rw [Cert.ReferenceIdeal.Read.val_main_v122_eq, Cert.ReferenceIdeal.RefValue.v122_eq, a0, a1, a2, a3, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
